-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x512 : Shape := ⟨2, ![16384, 512]⟩
abbrev S16384x256 : Shape := ⟨2, ![16384, 256]⟩
abbrev S512x128 : Shape := ⟨2, ![512, 128]⟩
abbrev S512x512 : Shape := ⟨2, ![512, 512]⟩
abbrev S512x256 : Shape := ⟨2, ![512, 256]⟩
abbrev S1x128 : Shape := ⟨2, ![1, 128]⟩
abbrev S1x512 : Shape := ⟨2, ![1, 512]⟩
abbrev S1x256 : Shape := ⟨2, ![1, 256]⟩
abbrev S256x256 : Shape := ⟨2, ![256, 256]⟩
abbrev S256x1 : Shape := ⟨2, ![256, 1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x256 : S_.BroadcastsInDim S16384x256 (![] : Fin 0 → Fin S16384x256.rank)
  reducesTo_S16384x256_S_d0_1 : S16384x256.ReducesTo [0, 1] S_
  bcast_S_S512x128 : S_.BroadcastsInDim S512x128 (![] : Fin 0 → Fin S512x128.rank)
  reducesTo_S512x128_S_d0_1 : S512x128.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S1x128 : S_.BroadcastsInDim S1x128 (![] : Fin 0 → Fin S1x128.rank)
  reducesTo_S1x128_S_d0_1 : S1x128.ReducesTo [0, 1] S_
  bcast_S_S1x512 : S_.BroadcastsInDim S1x512 (![] : Fin 0 → Fin S1x512.rank)
  reducesTo_S1x512_S_d0_1 : S1x512.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part3 {F : FTy → Type} [FloatOps F] (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  main_v53

def fn_part2 {F : FTy → Type} [FloatOps F] (main_arg7 : FVec F S1x512 .f32) (main_arg8 : FVec F S1x256 .f32) (main_arg9 : FVec F S256x256 .f32) (main_arg10 : FVec F S256x1 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x1 .f32 := Host.absf main_arg10
  let main_cst_18 : FVec F S_ .f32 := constant S_ .f32 0x7F800000#32
  let main_v50 : FVec F S256x1 .f32 := broadcastInDim S256x1 ![] bcast_S_S256x1 main_cst_18
  fn_part3 (F := F) main_v48 main_v49 main_v50

def fn_part1 {F : FTy → Type} [FloatOps F] (main_arg4 : FVec F S512x512 .f32) (main_arg5 : FVec F S512x256 .f32) (main_arg6 : FVec F S1x128 .f32) (main_arg7 : FVec F S1x512 .f32) (main_arg8 : FVec F S1x256 .f32) (main_arg9 : FVec F S256x256 .f32) (main_arg10 : FVec F S256x1 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x128 .f32) (main_arg1 : FVec F S16384x512 .f32) (main_arg2 : FVec F S16384x256 .f32) (main_arg3 : FVec F S512x128 .f32) (main_arg4 : FVec F S512x512 .f32) (main_arg5 : FVec F S512x256 .f32) (main_arg6 : FVec F S1x128 .f32) (main_arg7 : FVec F S1x512 .f32) (main_arg8 : FVec F S1x256 .f32) (main_arg9 : FVec F S256x256 .f32) (main_arg10 : FVec F S256x1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_v13 main_v16
-- ==== Kernel.lean ====
abbrev S16384x128 : Shape := ⟨2, ![16384, 128]⟩
abbrev S16384x512 : Shape := ⟨2, ![16384, 512]⟩
abbrev S16384x256 : Shape := ⟨2, ![16384, 256]⟩
abbrev S512x128 : Shape := ⟨2, ![512, 128]⟩
abbrev S512x512 : Shape := ⟨2, ![512, 512]⟩
abbrev S512x256 : Shape := ⟨2, ![512, 256]⟩
abbrev S1x128 : Shape := ⟨2, ![1, 128]⟩
abbrev S1x512 : Shape := ⟨2, ![1, 512]⟩
abbrev S1x256 : Shape := ⟨2, ![1, 256]⟩
abbrev S256x256 : Shape := ⟨2, ![256, 256]⟩
abbrev S256x1 : Shape := ⟨2, ![256, 1]⟩
abbrev S128x512 : Shape := ⟨2, ![128, 512]⟩
abbrev S256x512 : Shape := ⟨2, ![256, 512]⟩
abbrev S2048x128 : Shape := ⟨2, ![2048, 128]⟩
abbrev S2048x512 : Shape := ⟨2, ![2048, 512]⟩
abbrev S2048x256 : Shape := ⟨2, ![2048, 256]⟩
abbrev S2048 : Shape := ⟨1, ![2048]⟩
abbrev S2048x1 : Shape := ⟨2, ![2048, 1]⟩

abbrev nBuf : Space → Nat
  | .hbm => 22
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x512, .f32⟩
  | .hbm, ⟨2, _⟩ => ⟨S16384x256, .f32⟩
  | .hbm, ⟨3, _⟩ => ⟨S512x128, .f32⟩
  | .hbm, ⟨4, _⟩ => ⟨S512x512, .f32⟩
  | .hbm, ⟨5, _⟩ => ⟨S512x256, .f32⟩
  | .hbm, ⟨6, _⟩ => ⟨S1x128, .f32⟩
  | .hbm, ⟨7, _⟩ => ⟨S1x512, .f32⟩
  | .hbm, ⟨8, _⟩ => ⟨S1x256, .f32⟩
  | .hbm, ⟨9, _⟩ => ⟨S256x256, .f32⟩
  | .hbm, ⟨10, _⟩ => ⟨S256x1, .f32⟩
  | .hbm, ⟨11, _⟩ => ⟨S128x512, .f32⟩
  | .hbm, ⟨12, _⟩ => ⟨S128x512, .bf16⟩
  | .hbm, ⟨13, _⟩ => ⟨S512x512, .f32⟩
  | .hbm, ⟨14, _⟩ => ⟨S512x512, .bf16⟩
  | .hbm, ⟨15, _⟩ => ⟨S256x512, .f32⟩
  | .hbm, ⟨16, _⟩ => ⟨S256x512, .bf16⟩
  | .hbm, ⟨17, _⟩ => ⟨S256x256, .f32⟩
  | .hbm, ⟨18, _⟩ => ⟨S256x256, .bf16⟩
  | .hbm, ⟨19, _⟩ => ⟨S1x256, .f32⟩
  | .hbm, ⟨20, _⟩ => ⟨S16384x512, .f32⟩
  | .hbm, ⟨21, _⟩ => ⟨S16384x256, .f32⟩
  | .local _ .vmem, ⟨0, _⟩ => ⟨S2048x128, .f32⟩
  | .local _ .vmem, ⟨1, _⟩ => ⟨S2048x128, .f32⟩
  | .local _ .vmem, ⟨2, _⟩ => ⟨S2048x512, .f32⟩
  | .local _ .vmem, ⟨3, _⟩ => ⟨S2048x512, .f32⟩
  | .local _ .vmem, ⟨4, _⟩ => ⟨S2048x256, .f32⟩
  | .local _ .vmem, ⟨5, _⟩ => ⟨S2048x256, .f32⟩
  | .local _ .vmem, ⟨6, _⟩ => ⟨S128x512, .bf16⟩
  | .local _ .vmem, ⟨7, _⟩ => ⟨S512x512, .bf16⟩
  | .local _ .vmem, ⟨8, _⟩ => ⟨S256x512, .bf16⟩
  | .local _ .vmem, ⟨9, _⟩ => ⟨S1x128, .f32⟩
  | .local _ .vmem, ⟨10, _⟩ => ⟨S1x512, .f32⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S2048x512, .f32⟩
  | .local _ .vmem, ⟨15, _⟩ => ⟨S2048x512, .f32⟩
  | .local _ .vmem, ⟨16, _⟩ => ⟨S2048x256, .f32⟩
  | .local _ .vmem, ⟨17, _⟩ => ⟨S2048x256, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S512x128_S128x512_1_0 : S512x128.Transposes [1, 0] S128x512
  bitsLt_bf16_f32 : FTy.bits .bf16 < FTy.bits .f32
  transposes_S512x512_S512x512_1_0 : S512x512.Transposes [1, 0] S512x512
  transposes_S512x256_S256x512_1_0 : S512x256.Transposes [1, 0] S256x512
  transposes_S256x256_S256x256_1_0 : S256x256.Transposes [1, 0] S256x256
  shapeCasts_S256x1_S1x256 : S256x1.ShapeCasts S1x256
  inb_S2048x128_S2048x128_0_0 : ∀ a, (![0, 0] : Fin 2 → Nat) a + S2048x128.size a ≤ S2048x128.size a
  h_S2048x128 : 0 < S2048x128.numel
  inb_S2048x512_S2048x512_0_0 : ∀ a, (![0, 0] : Fin 2 → Nat) a + S2048x512.size a ≤ S2048x512.size a
  h_S2048x512 : 0 < S2048x512.numel
  inb_S2048x256_S2048x256_0_0 : ∀ a, (![0, 0] : Fin 2 → Nat) a + S2048x256.size a ≤ S2048x256.size a
  h_S2048x256 : 0 < S2048x256.numel
  inb_S1x128_S1x128_0_0 : ∀ a, (![0, 0] : Fin 2 → Nat) a + S1x128.size a ≤ S1x128.size a
  h_S1x128 : 0 < S1x128.numel
  inb_S1x512_S1x512_0_0 : ∀ a, (![0, 0] : Fin 2 → Nat) a + S1x512.size a ≤ S1x512.size a
  h_S1x512 : 0 < S1x512.numel
  inb_S1x256_S1x256_0_0 : ∀ a, (![0, 0] : Fin 2 → Nat) a + S1x256.size a ≤ S1x256.size a
  h_S1x256 : 0 < S1x256.numel
  broadcasts_S1x128_S2048x128 : S1x128.Broadcasts S2048x128
  reduces_S2048x128_S2048 : S2048x128.Reduces [1] S2048
  shapeCasts_S2048_S2048x1 : S2048.ShapeCasts S2048x1
  broadcasts_S1x512_S2048x512 : S1x512.Broadcasts S2048x512
  reduces_S2048x512_S2048 : S2048x512.Reduces [1] S2048
  broadcasts_S1x256_S2048x256 : S1x256.Broadcasts S2048x256
  reduces_S2048x256_S2048 : S2048x256.Reduces [1] S2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1x256_S1x256 : S1x256.ShapeCasts S1x256
  broadcasts_S2048x1_S2048x256 : S2048x1.Broadcasts S2048x256
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  dot_S2048x256_S256x256_S2048x256_1_0_0_1_n_n_wf : DotDims.WF S2048x256 S256x256 S2048x256 [1] [0] [0] [1] [] []
  dot_S2048x128_S128x512_S2048x512_1_0_0_1_n_n_wf : DotDims.WF S2048x128 S128x512 S2048x512 [1] [0] [0] [1] [] []
  dot_S2048x512_S512x512_S2048x512_1_0_0_1_n_n_wf : DotDims.WF S2048x512 S512x512 S2048x512 [1] [0] [0] [1] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x512.size a ≤ S16384x512.size a
  hwx0_11 : ∀ i : grid0.Coords, EltTy.bits .f32 = 32 ∨ (Rect.block (s := S16384x512) S2048x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x256.size a ≤ S16384x256.size a
  hwx0_12 : ∀ i : grid0.Coords, EltTy.bits .f32 = 32 ∨ (Rect.block (s := S16384x256) S2048x256.size (cc0_transform_12 i) (hinb0_12 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S2048x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S2048x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x512 : Shape := ⟨2, ![16384, 512]⟩
abbrev S16384x256 : Shape := ⟨2, ![16384, 256]⟩
abbrev S512x128 : Shape := ⟨2, ![512, 128]⟩
abbrev S512x512 : Shape := ⟨2, ![512, 512]⟩
abbrev S512x256 : Shape := ⟨2, ![512, 256]⟩
abbrev S1x128 : Shape := ⟨2, ![1, 128]⟩
abbrev S1x512 : Shape := ⟨2, ![1, 512]⟩
abbrev S1x256 : Shape := ⟨2, ![1, 256]⟩
abbrev S256x256 : Shape := ⟨2, ![256, 256]⟩
abbrev S256x1 : Shape := ⟨2, ![256, 1]⟩
abbrev S128x1 : Shape := ⟨2, ![128, 1]⟩
abbrev S16384x1 : Shape := ⟨2, ![16384, 1]⟩
abbrev S512x1 : Shape := ⟨2, ![512, 1]⟩
abbrev S128x512 : Shape := ⟨2, ![128, 512]⟩
abbrev S256x512 : Shape := ⟨2, ![256, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x512, .f32⟩
  | .hbm, ⟨2, _⟩ => ⟨S16384x256, .f32⟩
  | .hbm, ⟨3, _⟩ => ⟨S512x128, .f32⟩
  | .hbm, ⟨4, _⟩ => ⟨S512x512, .f32⟩
  | .hbm, ⟨5, _⟩ => ⟨S512x256, .f32⟩
  | .hbm, ⟨6, _⟩ => ⟨S1x128, .f32⟩
  | .hbm, ⟨7, _⟩ => ⟨S1x512, .f32⟩
  | .hbm, ⟨8, _⟩ => ⟨S1x256, .f32⟩
  | .hbm, ⟨9, _⟩ => ⟨S256x256, .f32⟩
  | .hbm, ⟨10, _⟩ => ⟨S256x1, .f32⟩
  | .hbm, ⟨11, _⟩ => ⟨S128x1, .f32⟩
  | .hbm, ⟨12, _⟩ => ⟨S16384x1, .f32⟩
  | .hbm, ⟨13, _⟩ => ⟨S512x1, .f32⟩
  | .hbm, ⟨14, _⟩ => ⟨S16384x1, .f32⟩
  | .hbm, ⟨15, _⟩ => ⟨S16384x1, .f32⟩
  | .hbm, ⟨16, _⟩ => ⟨S256x1, .f32⟩
  | .hbm, ⟨17, _⟩ => ⟨S16384x1, .f32⟩
  | .hbm, ⟨18, _⟩ => ⟨S16384x1, .f32⟩
  | .hbm, ⟨19, _⟩ => ⟨S256x256, .f32⟩
  | .hbm, ⟨20, _⟩ => ⟨S16384x256, .f32⟩
  | .hbm, ⟨21, _⟩ => ⟨S1x256, .f32⟩
  | .hbm, ⟨22, _⟩ => ⟨S16384x256, .f32⟩
  | .hbm, ⟨23, _⟩ => ⟨S16384x256, .f32⟩
  | .hbm, ⟨24, _⟩ => ⟨S128x512, .f32⟩
  | .hbm, ⟨25, _⟩ => ⟨S16384x512, .f32⟩
  | .hbm, ⟨26, _⟩ => ⟨S512x512, .f32⟩
  | .hbm, ⟨27, _⟩ => ⟨S16384x512, .f32⟩
  | .hbm, ⟨28, _⟩ => ⟨S16384x512, .f32⟩
  | .hbm, ⟨29, _⟩ => ⟨S256x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  transposes_S1x128_S128x1_1_0 : S1x128.Transposes [1, 0] S128x1
  transposes_S1x512_S512x1_1_0 : S1x512.Transposes [1, 0] S512x1
  transposes_S1x256_S256x1_1_0 : S1x256.Transposes [1, 0] S256x1
  transposes_S256x256_S256x256_1_0 : S256x256.Transposes [1, 0] S256x256
  transposes_S256x1_S1x256_1_0 : S256x1.Transposes [1, 0] S1x256
  transposes_S512x128_S128x512_1_0 : S512x128.Transposes [1, 0] S128x512
  transposes_S512x512_S512x512_1_0 : S512x512.Transposes [1, 0] S512x512
  transposes_S512x256_S256x512_1_0 : S512x256.Transposes [1, 0] S256x512
  bcast_S_S16384x512 : S_.BroadcastsInDim S16384x512 (![] : Fin 0 → Fin S16384x512.rank)
  dot_S16384x128_S128x1_S16384x1_1_0_0_1_n_n_wf : DotDims.WF S16384x128 S128x1 S16384x1 [1] [0] [0] [1] [] []
  dot_S16384x512_S512x1_S16384x1_1_0_0_1_n_n_wf : DotDims.WF S16384x512 S512x1 S16384x1 [1] [0] [0] [1] [] []
  dot_S16384x256_S256x1_S16384x1_1_0_0_1_n_n_wf : DotDims.WF S16384x256 S256x1 S16384x1 [1] [0] [0] [1] [] []
  dot_S16384x256_S256x256_S16384x256_1_0_0_1_n_n_wf : DotDims.WF S16384x256 S256x256 S16384x256 [1] [0] [0] [1] [] []
  dot_S16384x1_S1x256_S16384x256_1_0_0_1_n_n_wf : DotDims.WF S16384x1 S1x256 S16384x256 [1] [0] [0] [1] [] []
  dot_S16384x128_S128x512_S16384x512_1_0_0_1_n_n_wf : DotDims.WF S16384x128 S128x512 S16384x512 [1] [0] [0] [1] [] []
  dot_S16384x512_S512x512_S16384x512_1_0_0_1_n_n_wf : DotDims.WF S16384x512 S512x512 S16384x512 [1] [0] [0] [1] [] []
  dot_S16384x256_S256x512_S16384x512_1_0_0_1_n_n_wf : DotDims.WF S16384x256 S256x512 S16384x512 [1] [0] [0] [1] [] []

variable [Facts₀]

def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x1_S1x256_S16384x256_1_0_0_1_n_n : DotDims S16384x1 S1x256 S16384x256 where
  lhsContracting := [1]
  rhsContracting := [0]
  lhsNonContracting := [0]
  rhsNonContracting := [1]
  lhsBatch := []
  rhsBatch := []
  wf := dot_S16384x1_S1x256_S16384x256_1_0_0_1_n_n_wf
def dot_S16384x128_S128x512_S16384x512_1_0_0_1_n_n : DotDims S16384x128 S128x512 S16384x512 where
  lhsContracting := [1]
  rhsContracting := [0]
  lhsNonContracting := [0]
  rhsNonContracting := [1]
  lhsBatch := []
  rhsBatch := []
  wf := dot_S16384x128_S128x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf

class Facts : Prop extends Facts₀ where

variable [Facts]
-- ==== Proof.Spec.lean ====
/-
  One step of a Legendre-memory recurrent cell, row by row, on the extended reals.

  For one batch row with input `xr`, hidden state `hr` and memory `mr`:

  * the scalar signal is `u = xr·ex + hr·eh + mr·em` (three inner products, added in this order);
  * the new memory is `m'[d] = (∑ j, mr[j] · A[j, d]) + u · b[d]`;
  * the new hidden state is `h'[n] = logistic ((∑ k, xr[k] · Wx[k, n] + ∑ k, hr[k] · Wh[k, n]) + ∑ d, m'[d] · Wm[d, n])`.

  The coefficient families are plain functions of their coordinates, so that a program holding a weight matrix
  transposed and one holding it as given both instantiate the same row functions. The whole-batch results
  `newMemory` and `newHidden` read every matrix as the caller passes it: `AT[d, j]`, `BT[d, 0]`, `Wx[n, k]`,
  `Wh[n, k]`, `Wm[n, d]`, and the three encoders as their one row.

  Every sum is a plain finite sum of products and the additions keep one grouping, so nothing here needs a value
  to be finite.
-/
import Idealize.ShloMosaic.PureOps.Ideal
import Idealize.ShloMosaic.Lib.ValueIdx

noncomputable section

open scoped BigOperators

namespace Cert.Lmu

open Idealize.ShloMosaic Idealize.ShloMosaic.ValueIdx

/-- An `a × b` matrix of extended reals. -/
abbrev Mat (a b : ℕ) : Type := (⟨2, ![a, b]⟩ : Shape).Idx → EReal

/-- The scalar signal of one row: three inner products, `(xr·ex + hr·eh) + mr·em`. -/
def signal (xr : Fin 128 → EReal) (hr : Fin 512 → EReal) (mr : Fin 256 → EReal)
    (ex : Fin 128 → EReal) (eh : Fin 512 → EReal) (em : Fin 256 → EReal) : EReal :=
  ((∑ k : Fin 128, xr k * ex k) + ∑ k : Fin 512, hr k * eh k) + ∑ k : Fin 256, mr k * em k

/-- Entry `d` of one row's new memory: the old memory through `A`, plus the signal `u` times `b[d]`. -/
def memoryRow (mr : Fin 256 → EReal) (u : EReal) (A : Fin 256 → Fin 256 → EReal) (b : Fin 256 → EReal)
    (d : Fin 256) : EReal :=
  (∑ j : Fin 256, mr j * A j d) + u * b d

/-- Entry `n` of one row's new hidden state: the logistic function of the three projections' sum. -/
def hiddenRow (xr : Fin 128 → EReal) (hr : Fin 512 → EReal) (nm : Fin 256 → EReal)
    (Wx : Fin 128 → Fin 512 → EReal) (Wh : Fin 512 → Fin 512 → EReal) (Wm : Fin 256 → Fin 512 → EReal)
    (n : Fin 512) : EReal :=
  Ideal.logistic (((∑ k : Fin 128, xr k * Wx k n) + ∑ k : Fin 512, hr k * Wh k n) + ∑ d : Fin 256, nm d * Wm d n)

/-- The signal of batch row `r`. -/
def signalAt (X : Mat 16384 128) (H : Mat 16384 512) (M : Mat 16384 256)
    (ex : Mat 1 128) (eh : Mat 1 512) (em : Mat 1 256) (r : Fin 16384) : EReal :=
  signal (fun k => X (ix2 r k)) (fun k => H (ix2 r k)) (fun k => M (ix2 r k))
    (fun k => ex (ix2 (0 : Fin 1) k)) (fun k => eh (ix2 (0 : Fin 1) k)) (fun k => em (ix2 (0 : Fin 1) k))

/-- The new memory at batch row `r`, entry `d`: `(∑ j, M[r, j] · AT[d, j]) + u[r] · BT[d, 0]`. -/
def newMemoryAt (X : Mat 16384 128) (H : Mat 16384 512) (M : Mat 16384 256)
    (ex : Mat 1 128) (eh : Mat 1 512) (em : Mat 1 256) (AT : Mat 256 256) (BT : Mat 256 1)
    (r : Fin 16384) (d : Fin 256) : EReal :=
  memoryRow (fun j => M (ix2 r j)) (signalAt X H M ex eh em r) (fun j d => AT (ix2 d j))
    (fun d => BT (ix2 d (0 : Fin 1))) d

/-- The new hidden state at batch row `r`, entry `n`. -/
def newHiddenAt (X : Mat 16384 128) (H : Mat 16384 512) (M : Mat 16384 256)
    (Wx : Mat 512 128) (Wh : Mat 512 512) (Wm : Mat 512 256)
    (ex : Mat 1 128) (eh : Mat 1 512) (em : Mat 1 256) (AT : Mat 256 256) (BT : Mat 256 1)
    (r : Fin 16384) (n : Fin 512) : EReal :=
  hiddenRow (fun k => X (ix2 r k)) (fun k => H (ix2 r k)) (fun d => newMemoryAt X H M ex eh em AT BT r d)
    (fun k n => Wx (ix2 n k)) (fun k n => Wh (ix2 n k)) (fun d n => Wm (ix2 n d)) n

/-- The whole batch's new memory, a `16384 × 256` matrix. -/
def newMemory (X : Mat 16384 128) (H : Mat 16384 512) (M : Mat 16384 256)
    (ex : Mat 1 128) (eh : Mat 1 512) (em : Mat 1 256) (AT : Mat 256 256) (BT : Mat 256 1) : Mat 16384 256 :=
  fun i => newMemoryAt X H M ex eh em AT BT (i 0) (i 1)

/-- The whole batch's new hidden state, a `16384 × 512` matrix. -/
def newHidden (X : Mat 16384 128) (H : Mat 16384 512) (M : Mat 16384 256)
    (Wx : Mat 512 128) (Wh : Mat 512 512) (Wm : Mat 512 256)
    (ex : Mat 1 128) (eh : Mat 1 512) (em : Mat 1 256) (AT : Mat 256 256) (BT : Mat 256 1) : Mat 16384 512 :=
  fun i => newHiddenAt X H M Wx Wh Wm ex eh em AT BT (i 0) (i 1)

end Cert.Lmu

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibRowDot.lean ====
/-
  The inner product of each row of a matrix with one row vector, in the spelling a vector unit uses for
  `sum(x * e, axis = -1, keepdims = True)`: the row vector `e : [1, b]` is spread over the `a` rows, multiplied lane by
  lane with `x : [a, b]`, the lanes of each row are summed into an `[a]` vector, and that vector is given a unit
  second axis. Read at `(r, u)` on the extended reals this is `∑ k, x (r, k) · e (0, k)`.

  Also: at the extended reals a sum over a one-element index type is its one term (a contraction over an axis of
  extent one multiplies and adds nothing).
-/
import Idealize.ShloMosaic.PureOps.Ideal
import Idealize.ShloMosaic.PureOps.Ideal.Laws
import Idealize.ShloMosaic.Lib.ValueIdx
import Idealize.ShloMosaic.Lib.ValueLayout
import proofs.«145382_j37795712205130_2_alg».proof.Proof.LibColumns

noncomputable section

open scoped BigOperators

namespace Cert.Proof.RowDot

open Idealize.ShloMosaic Idealize.ShloMosaic.ValueIdx

/-- The keepdims row-by-row inner product with one row vector, read at `(r, u)`: `∑ k, x (r, k) · e (0, k)`. The
    proof arguments are variables, so the statement matches a printed program's own. -/
theorem rowDot_keepdims_apply {a b : ℕ} {φ : FTy} (x : FVec Ideal ⟨2, ![a, b]⟩ φ) (e : FVec Ideal ⟨2, ![1, b]⟩ φ)
    (acc : BitVec φ.bits) (hb : (⟨2, ![1, b]⟩ : Shape).Broadcasts ⟨2, ![a, b]⟩)
    (hr : (⟨2, ![a, b]⟩ : Shape).Reduces [(1 : Fin 2)] ⟨1, ![a]⟩) (hφ : FKind.Formats φ)
    (hacc : acc = FKind.add.neutral φ hφ) (hc : (⟨1, ![a]⟩ : Shape).ShapeCasts ⟨2, ![a, 1]⟩)
    (r : Fin a) (u : Fin 1) :
    shapeCast ⟨2, ![a, 1]⟩
        (multiReduction .add [(1 : Fin 2)] ⟨1, ![a]⟩ (mulf x (broadcastTo ⟨2, ![a, b]⟩ e hb)) acc hr hφ hacc) hc (ix2 r u)
      = ∑ k : Fin b, x (ix2 r k) * e (ix2 (0 : Fin 1) k) := by
  refine (Cert.Proof.Columns.shapeCast_a_a1_apply _ hc r u).trans ?_
  refine (Cert.Proof.Columns.multiReduction_add_rows _ acc hr hφ hacc r).trans ?_
  refine Finset.sum_congr rfl fun k _ => ?_
  exact congrArg (x (ix2 r k) * ·) (broadcastTo_1b_ab_apply e hb r k)

/-- A sum over `Fin 1` is its term at `0`. -/
theorem sum_fin_one {M : Type*} [AddCommMonoid M] (f : Fin 1 → M) : ∑ k : Fin 1, f k = f 0 := by
  rw [Fin.sum_univ_succ, Fin.sum_univ_zero, add_zero]

end Cert.Proof.RowDot

end
-- ==== Proof.Body.lean ====
/-
  What the kernel's body computes for one block of 2048 batch rows, read at an index.

  The body holds a block of `x`, `h`, `m` rows and the whole (transposed) weights. Its first store is the block's
  new memory: a matrix product of the memory rows with the transposed recurrence matrix, plus the signal column —
  three row-by-row inner products with the encoders' rows, summed and kept as a `[2048, 1]` column — spread over
  the lanes and multiplied by the input row. Its second store is the logistic function of three matrix products'
  sum. Each matrix product into a zero accumulator is a plain sum of products; each lane sum of a product with a
  spread row is an inner product; the changes of float format are the identity on the extended reals. So entry
  `(p, q)` of either store is the row function of `Spec.lean` at the block's row `p`.
-/
import proofs.«145382_j37795712205130_2_alg».proof.Proof.Gen.KernelIdeal.Skeleton
import proofs.«145382_j37795712205130_2_alg».proof.Proof.Spec
import proofs.«145382_j37795712205130_2_alg».proof.Proof.LibPlainDot
import proofs.«145382_j37795712205130_2_alg».proof.Proof.LibColumns
import proofs.«145382_j37795712205130_2_alg».proof.Proof.LibRowDot
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Lmu
open Cert.Proof.PlainDot Cert.Proof.Columns Cert.Proof.RowDot

/-- The block's new memory at `(p, q)`: the memory row function of the block's row `p`, with the recurrence matrix
    and the input row read as the body holds them. -/
theorem memory_block_apply (v0 : Vec Ideal S2048x128 .f32) (v1 : Vec Ideal S2048x512 .f32) (v2 : Vec Ideal S2048x256 .f32)
    (v3 : Vec Ideal S1x128 .f32) (v4 : Vec Ideal S1x512 .f32) (v5 : Vec Ideal S1x256 .f32)
    (v20 : Vec Ideal S256x256 .bf16) (v22 : Vec Ideal S1x256 .f32) (p : Fin 2048) (q : Fin 256) :
    k0_pay2 (F := Ideal) v0 v1 v2 v3 v4 v5 v20 v22 (ix2 p q)
      = memoryRow (fun j => v2 (ix2 p j))
          (signal (fun k => v0 (ix2 p k)) (fun k => v1 (ix2 p k)) (fun k => v2 (ix2 p k))
            (fun k => v3 (ix2 (0 : Fin 1) k)) (fun k => v4 (ix2 (0 : Fin 1) k)) (fun k => v5 (ix2 (0 : Fin 1) k)))
          (fun j d => v20 (ix2 j d)) (fun d => v22 (ix2 (0 : Fin 1) d)) q := by
  unfold k0_pay2 memoryRow signal
  simp only [shapeCast_self]
  refine congrArg₂ (· + ·) ?_ (congrArg₂ (· * ·) ?_ ?_)
  · exact matmul_plain_zero none (truncf .bf16 v2 bitsLt_bf16_f32) v20 (ix2 p q)
  · refine (broadcastTo_a1_ab_apply _ broadcasts_S2048x1_S2048x256 p q).trans ?_
    refine congrArg₂ (· + ·) (congrArg₂ (· + ·) ?_ ?_) ?_
    · exact rowDot_keepdims_apply v0 v3 0x00000000#32 broadcasts_S1x128_S2048x128 reduces_S2048x128_S2048 (.inl rfl) rfl
        shapeCasts_S2048_S2048x1 p 0
    · exact rowDot_keepdims_apply v1 v4 0x00000000#32 broadcasts_S1x512_S2048x512 reduces_S2048x512_S2048 (.inl rfl) rfl
        shapeCasts_S2048_S2048x1 p 0
    · exact rowDot_keepdims_apply v2 v5 0x00000000#32 broadcasts_S1x256_S2048x256 reduces_S2048x256_S2048 (.inl rfl) rfl
        shapeCasts_S2048_S2048x1 p 0
  · exact broadcastTo_1b_ab_apply v22 broadcasts_S1x256_S2048x256 p q

/-- The weight block the body keeps for its last stores is the loaded block itself. -/
theorem kept_weight_eq (v31 : Vec Ideal S128x512 .bf16) : k0_pay3 (F := Ideal) v31 = v31 := by
  unfold k0_pay3
  exact shapeCast_self v31 _

/-- The block's new hidden state at `(p, n)`: the hidden row function of the block's row `p` and of the block's new
    memory `v29`, with the three weights read as the body holds them. -/
theorem hidden_block_apply (v0 : Vec Ideal S2048x128 .f32) (v1 : Vec Ideal S2048x512 .f32) (v29 : FVec Ideal S2048x256 .f32)
    (v32 : FVec Ideal S128x512 .bf16) (v33 : Vec Ideal S512x512 .bf16) (v35 : Vec Ideal S256x512 .bf16)
    (p : Fin 2048) (n : Fin 512) :
    k0_pay1 (F := Ideal) v0 v1 v29 v32 v33 v35 (ix2 p n)
      = hiddenRow (fun k => v0 (ix2 p k)) (fun k => v1 (ix2 p k)) (fun d => v29 (ix2 p d))
          (fun k n => v32 (ix2 k n)) (fun k n => v33 (ix2 k n)) (fun d n => v35 (ix2 d n)) n := by
  unfold k0_pay1 hiddenRow
  simp only [shapeCast_self]
  refine congrArg Ideal.logistic (congrArg₂ (· + ·) (congrArg₂ (· + ·) ?_ ?_) ?_)
  · exact matmul_plain_zero none (truncf .bf16 v0 bitsLt_bf16_f32) v32 (ix2 p n)
  · exact matmul_plain_zero none (truncf .bf16 v1 bitsLt_bf16_f32) v33 (ix2 p n)
  · exact matmul_plain_zero none (truncf .bf16 v29 bitsLt_bf16_f32) v35 (ix2 p n)

/-! ## The block's stores over the whole arrays

  When the loaded blocks are known entry by entry — the rows `x`, `h`, `m` of the block are rows `r` of the whole
  arrays, the encoder and input rows are the arguments' own, and each weight block is its argument transposed — the
  two stores at the block's row `p` are the specification's new memory and new hidden state at batch row `r`. -/

/-- The block's new memory at `(p, q)` is the specification's at batch row `r`, when row `p` of the block is row `r`
    of the batch. -/
theorem memory_block_of_reads (v0 : Vec Ideal S2048x128 .f32) (v1 : Vec Ideal S2048x512 .f32) (v2 : Vec Ideal S2048x256 .f32)
    (v3 : Vec Ideal S1x128 .f32) (v4 : Vec Ideal S1x512 .f32) (v5 : Vec Ideal S1x256 .f32)
    (v20 : Vec Ideal S256x256 .bf16) (v22 : Vec Ideal S1x256 .f32)
    (X : Mat 16384 128) (H : Mat 16384 512) (M : Mat 16384 256) (ex : Mat 1 128) (eh : Mat 1 512) (em : Mat 1 256)
    (AT : Mat 256 256) (BT : Mat 256 1) (r : Fin 16384) (p : Fin 2048)
    (h0 : ∀ k : Fin 128, v0 (ix2 p k) = X (ix2 r k)) (h1 : ∀ k : Fin 512, v1 (ix2 p k) = H (ix2 r k))
    (h2 : ∀ k : Fin 256, v2 (ix2 p k) = M (ix2 r k))
    (h3 : ∀ k : Fin 128, v3 (ix2 (0 : Fin 1) k) = ex (ix2 (0 : Fin 1) k))
    (h4 : ∀ k : Fin 512, v4 (ix2 (0 : Fin 1) k) = eh (ix2 (0 : Fin 1) k))
    (h5 : ∀ k : Fin 256, v5 (ix2 (0 : Fin 1) k) = em (ix2 (0 : Fin 1) k))
    (h20 : ∀ (j d : Fin 256), v20 (ix2 j d) = AT (ix2 d j))
    (h22 : ∀ d : Fin 256, v22 (ix2 (0 : Fin 1) d) = BT (ix2 d (0 : Fin 1))) (q : Fin 256) :
    k0_pay2 (F := Ideal) v0 v1 v2 v3 v4 v5 v20 v22 (ix2 p q) = newMemoryAt X H M ex eh em AT BT r q := by
  rw [memory_block_apply]
  unfold newMemoryAt signalAt
  simp only [h0, h1, h2, h3, h4, h5, h20, h22]

/-- The block's new hidden state at `(p, n)` is the specification's at batch row `r`. -/
theorem hidden_block_of_reads (v0 : Vec Ideal S2048x128 .f32) (v1 : Vec Ideal S2048x512 .f32) (v2 : Vec Ideal S2048x256 .f32)
    (v3 : Vec Ideal S1x128 .f32) (v4 : Vec Ideal S1x512 .f32) (v5 : Vec Ideal S1x256 .f32)
    (v20 : Vec Ideal S256x256 .bf16) (v22 : Vec Ideal S1x256 .f32)
    (v31 : Vec Ideal S128x512 .bf16) (v33 : Vec Ideal S512x512 .bf16) (v35 : Vec Ideal S256x512 .bf16)
    (X : Mat 16384 128) (H : Mat 16384 512) (M : Mat 16384 256) (Wx : Mat 512 128) (Wh : Mat 512 512) (Wm : Mat 512 256)
    (ex : Mat 1 128) (eh : Mat 1 512) (em : Mat 1 256) (AT : Mat 256 256) (BT : Mat 256 1) (r : Fin 16384) (p : Fin 2048)
    (h0 : ∀ k : Fin 128, v0 (ix2 p k) = X (ix2 r k)) (h1 : ∀ k : Fin 512, v1 (ix2 p k) = H (ix2 r k))
    (h2 : ∀ k : Fin 256, v2 (ix2 p k) = M (ix2 r k))
    (h3 : ∀ k : Fin 128, v3 (ix2 (0 : Fin 1) k) = ex (ix2 (0 : Fin 1) k))
    (h4 : ∀ k : Fin 512, v4 (ix2 (0 : Fin 1) k) = eh (ix2 (0 : Fin 1) k))
    (h5 : ∀ k : Fin 256, v5 (ix2 (0 : Fin 1) k) = em (ix2 (0 : Fin 1) k))
    (h20 : ∀ (j d : Fin 256), v20 (ix2 j d) = AT (ix2 d j))
    (h22 : ∀ d : Fin 256, v22 (ix2 (0 : Fin 1) d) = BT (ix2 d (0 : Fin 1)))
    (h31 : ∀ (k : Fin 128) (n : Fin 512), v31 (ix2 k n) = Wx (ix2 n k))
    (h33 : ∀ (k : Fin 512) (n : Fin 512), v33 (ix2 k n) = Wh (ix2 n k))
    (h35 : ∀ (d : Fin 256) (n : Fin 512), v35 (ix2 d n) = Wm (ix2 n d)) (n : Fin 512) :
    k0_pay1 (F := Ideal) v0 v1 (k0_pay2 (F := Ideal) v0 v1 v2 v3 v4 v5 v20 v22) (k0_pay3 (F := Ideal) v31) v33 v35 (ix2 p n)
      = newHiddenAt X H M Wx Wh Wm ex eh em AT BT r n := by
  rw [hidden_block_apply, kept_weight_eq]
  unfold newHiddenAt
  simp only [h0, h1, h31, h33, h35,
    memory_block_of_reads v0 v1 v2 v3 v4 v5 v20 v22 X H M ex eh em AT BT r p h0 h1 h2 h3 h4 h5 h20 h22]

end Cert.KernelIdeal.Body

end
-- ==== Proof.Blocks.lean ====
/-
  The blocks the kernel's body is run on, read entry by entry off the arguments.

  The grid has eight points; point `t` works on batch rows `2048·t … 2048·t + 2047`. The windows of `x`, `h`, `m` and of
  the two results move with the point (block index `(t, 0)`), so entry `(p, k)` of such a block is entry
  `(2048·t + p, k)` of its array. Every other window holds its whole array at every point (block index `(0, 0)`).
  Five of those arrays are written by the host before the launch: four weights transposed (and changed to a
  narrower float format, which is the identity on the extended reals), so entry `(k, n)` of the block is entry
  `(n, k)` of the argument; and the input column `[256, 1]` re-laid as a row `[1, 256]`, so entry `(0, d)` of the
  block is entry `(d, 0)` of the argument.
-/
import proofs.«145382_j37795712205130_2_alg».proof.Proof.Gen.KernelIdeal.Frame
import proofs.«145382_j37795712205130_2_alg».proof.Proof.LibColumns
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arrays the host writes before the launch -/

/-- The first weight as the region finds it: `Wx` transposed. -/
theorem V_wx (c : Dev nD) : V m c main_v1
    = truncf (F := Ideal) .bf16 (transpose S128x512 [1, 0] (m ((c : Thread nD τ).loc main_arg3)) transposes_S512x128_S128x512_1_0) bitsLt_bf16_f32 := by
  dsimp only [V, hostOps0]
  after_results

/-- The second weight as the region finds it: `Wh` transposed. -/
theorem V_wh (c : Dev nD) : V m c main_v3
    = truncf (F := Ideal) .bf16 (transpose S512x512 [1, 0] (m ((c : Thread nD τ).loc main_arg4)) transposes_S512x512_S512x512_1_0) bitsLt_bf16_f32 := by
  dsimp only [V, hostOps0]
  after_results

/-- The third weight as the region finds it: `Wm` transposed. -/
theorem V_wm (c : Dev nD) : V m c main_v5
    = truncf (F := Ideal) .bf16 (transpose S256x512 [1, 0] (m ((c : Thread nD τ).loc main_arg5)) transposes_S512x256_S256x512_1_0) bitsLt_bf16_f32 := by
  dsimp only [V, hostOps0]
  after_results

/-- The recurrence matrix as the region finds it: `AT` transposed. -/
theorem V_at (c : Dev nD) : V m c main_v7
    = truncf (F := Ideal) .bf16 (transpose S256x256 [1, 0] (m ((c : Thread nD τ).loc main_arg9)) transposes_S256x256_S256x256_1_0) bitsLt_bf16_f32 := by
  dsimp only [V, hostOps0]
  after_results

/-- The input vector as the region finds it: the column `BT` re-laid as a row. -/
theorem V_bt (c : Dev nD) : V m c main_v8 = shapeCast S1x256 (m ((c : Thread nD τ).loc main_arg10)) shapeCasts_S256x1_S1x256 := by
  dsimp only [V, hostOps0]
  after_results
  rfl

/-! ## The block indices, decided over the eight points -/

theorem points : cfg0.N = 8 := N_0

/-- The windows that move with the point have block index `(t, 0)`. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The other windows have block index `(0, 0)` at every point. -/
theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- A row of a point's block is a row of the batch. -/
theorem row_lt (t : Fin cfg0.N) (p : Fin 2048) : t.val * 2048 + p.val < 16384 := by
  have ht := t.isLt
  have hN := points
  have hp := p.isLt
  omega

/-! ## The moving input blocks -/

/-- Entry `(p, k)` of `x`'s block at point `t` is `x (2048·t + p, k)`. -/
theorem x_block (c : Dev nD) (t : Fin cfg0.N) (p : Fin 2048) (k : Fin 128) :
    (iblk m c 0 t : Vec Ideal S2048x128 .f32) (ix2 p k)
      = m ((c : Thread nD τ).loc main_arg0) (ix2 ⟨t.val * 2048 + p.val, row_lt t p⟩ k) := by
  obtain ⟨e0, e1, -⟩ := idx_moving t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

/-- Entry `(p, k)` of `h`'s block at point `t` is `h (2048·t + p, k)`. -/
theorem h_block (c : Dev nD) (t : Fin cfg0.N) (p : Fin 2048) (k : Fin 512) :
    (iblk m c 1 t : Vec Ideal S2048x512 .f32) (ix2 p k)
      = m ((c : Thread nD τ).loc main_arg1) (ix2 ⟨t.val * 2048 + p.val, row_lt t p⟩ k) := by
  obtain ⟨-, -, e0, e1, -⟩ := idx_moving t
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t (0 : Fin 2) * 2048 + 1 * p.val = t.val * 2048 + p.val; rw [e0]; omega
  | ⟨1, _⟩ => show win0_1.index t (1 : Fin 2) * 512 + 1 * k.val = k.val; rw [e1]; omega

/-- Entry `(p, k)` of `m`'s block at point `t` is `m (2048·t + p, k)`. -/
theorem m_block (c : Dev nD) (t : Fin cfg0.N) (p : Fin 2048) (k : Fin 256) :
    (iblk m c 2 t : Vec Ideal S2048x256 .f32) (ix2 p k)
      = m ((c : Thread nD τ).loc main_arg2) (ix2 ⟨t.val * 2048 + p.val, row_lt t p⟩ k) := by
  obtain ⟨-, -, -, -, e0, e1, -⟩ := idx_moving t
  unfold iblk
  rw [View.read_apply]
  show V m c main_arg2 _ = _
  rw [V_main_arg2]
  refine congrArg (m ((c : Thread nD τ).loc main_arg2)) ?_
  funext a; apply Fin.ext
  match a with
  | ⟨0, _⟩ => show win0_2.index t (0 : Fin 2) * 2048 + 1 * p.val = t.val * 2048 + p.val; rw [e0]; omega
  | ⟨1, _⟩ => show win0_2.index t (1 : Fin 2) * 256 + 1 * k.val = k.val; rw [e1]; omega

/-! ## The encoders' rows -/

/-- The block of `ex` is `ex`. -/
theorem ex_block (c : Dev nD) (t : Fin cfg0.N) (k : Fin 128) :
    (iblk m c 6 t : Vec Ideal S1x128 .f32) (ix2 (0 : Fin 1) k) = m ((c : Thread nD τ).loc main_arg6) (ix2 (0 : Fin 1) k) := by
  obtain ⟨-, -, -, -, -, -, e0, e1, -⟩ := idx_fixed t
  unfold iblk
  rw [View.read_apply]
  show V m c main_arg6 _ = _
  rw [V_main_arg6]
  refine congrArg (m ((c : Thread nD τ).loc main_arg6)) ?_
  funext a; apply Fin.ext
  match a with
  | ⟨0, _⟩ => show win0_6.index t (0 : Fin 2) * 1 + 1 * 0 = 0; rw [e0]
  | ⟨1, _⟩ => show win0_6.index t (1 : Fin 2) * 128 + 1 * k.val = k.val; rw [e1]; omega

/-- The block of `eh` is `eh`. -/
theorem eh_block (c : Dev nD) (t : Fin cfg0.N) (k : Fin 512) :
    (iblk m c 7 t : Vec Ideal S1x512 .f32) (ix2 (0 : Fin 1) k) = m ((c : Thread nD τ).loc main_arg7) (ix2 (0 : Fin 1) k) := by
  obtain ⟨-, -, -, -, -, -, -, -, e0, e1, -⟩ := idx_fixed t
  unfold iblk
  rw [View.read_apply]
  show V m c main_arg7 _ = _
  rw [V_main_arg7]
  refine congrArg (m ((c : Thread nD τ).loc main_arg7)) ?_
  funext a; apply Fin.ext
  match a with
  | ⟨0, _⟩ => show win0_7.index t (0 : Fin 2) * 1 + 1 * 0 = 0; rw [e0]
  | ⟨1, _⟩ => show win0_7.index t (1 : Fin 2) * 512 + 1 * k.val = k.val; rw [e1]; omega

/-- The block of `em` is `em`. -/
theorem em_block (c : Dev nD) (t : Fin cfg0.N) (k : Fin 256) :
    (iblk m c 8 t : Vec Ideal S1x256 .f32) (ix2 (0 : Fin 1) k) = m ((c : Thread nD τ).loc main_arg8) (ix2 (0 : Fin 1) k) := by
  obtain ⟨-, -, -, -, -, -, -, -, -, -, e0, e1, -⟩ := idx_fixed t
  unfold iblk
  rw [View.read_apply]
  show V m c main_arg8 _ = _
  rw [V_main_arg8]
  refine congrArg (m ((c : Thread nD τ).loc main_arg8)) ?_
  funext a; apply Fin.ext
  match a with
  | ⟨0, _⟩ => show win0_8.index t (0 : Fin 2) * 1 + 1 * 0 = 0; rw [e0]
  | ⟨1, _⟩ => show win0_8.index t (1 : Fin 2) * 256 + 1 * k.val = k.val; rw [e1]; omega

/-! ## The blocks of the arrays the host wrote -/

/-- Entry `(k, n)` of the first weight's block is `Wx (n, k)`. -/
theorem wx_block (c : Dev nD) (t : Fin cfg0.N) (k : Fin 128) (n : Fin 512) :
    (iblk m c 3 t : Vec Ideal S128x512 .bf16) (ix2 k n) = m ((c : Thread nD τ).loc main_arg3) (ix2 n k) := by
  obtain ⟨e0, e1, -⟩ := idx_fixed t
  unfold iblk
  rw [View.read_apply]
  show V m c main_v1 _ = _
  rw [V_wx]
  have e : ((cfg0.win 3).blk t).view.emb (ix2 k n) = ix2 k n := by
    funext a; apply Fin.ext
    match a with
    | ⟨0, _⟩ => show win0_3.index t (0 : Fin 2) * 128 + 1 * k.val = k.val; rw [e0]; omega
    | ⟨1, _⟩ => show win0_3.index t (1 : Fin 2) * 512 + 1 * n.val = n.val; rw [e1]; omega
  rw [e]
  exact transpose_ix2_apply _ transposes_S512x128_S128x512_1_0 k n

/-- Entry `(k, n)` of the second weight's block is `Wh (n, k)`. -/
theorem wh_block (c : Dev nD) (t : Fin cfg0.N) (k : Fin 512) (n : Fin 512) :
    (iblk m c 4 t : Vec Ideal S512x512 .bf16) (ix2 k n) = m ((c : Thread nD τ).loc main_arg4) (ix2 n k) := by
  obtain ⟨-, -, e0, e1, -⟩ := idx_fixed t
  unfold iblk
  rw [View.read_apply]
  show V m c main_v3 _ = _
  rw [V_wh]
  have e : ((cfg0.win 4).blk t).view.emb (ix2 k n) = ix2 k n := by
    funext a; apply Fin.ext
    match a with
    | ⟨0, _⟩ => show win0_4.index t (0 : Fin 2) * 512 + 1 * k.val = k.val; rw [e0]; omega
    | ⟨1, _⟩ => show win0_4.index t (1 : Fin 2) * 512 + 1 * n.val = n.val; rw [e1]; omega
  rw [e]
  exact transpose_ix2_apply _ transposes_S512x512_S512x512_1_0 k n

/-- Entry `(d, n)` of the third weight's block is `Wm (n, d)`. -/
theorem wm_block (c : Dev nD) (t : Fin cfg0.N) (d : Fin 256) (n : Fin 512) :
    (iblk m c 5 t : Vec Ideal S256x512 .bf16) (ix2 d n) = m ((c : Thread nD τ).loc main_arg5) (ix2 n d) := by
  obtain ⟨-, -, -, -, e0, e1, -⟩ := idx_fixed t
  unfold iblk
  rw [View.read_apply]
  show V m c main_v5 _ = _
  rw [V_wm]
  have e : ((cfg0.win 5).blk t).view.emb (ix2 d n) = ix2 d n := by
    funext a; apply Fin.ext
    match a with
    | ⟨0, _⟩ => show win0_5.index t (0 : Fin 2) * 256 + 1 * d.val = d.val; rw [e0]; omega
    | ⟨1, _⟩ => show win0_5.index t (1 : Fin 2) * 512 + 1 * n.val = n.val; rw [e1]; omega
  rw [e]
  exact transpose_ix2_apply _ transposes_S512x256_S256x512_1_0 d n

/-- Entry `(j, d)` of the recurrence matrix's block is `AT (d, j)`. -/
theorem at_block (c : Dev nD) (t : Fin cfg0.N) (j : Fin 256) (d : Fin 256) :
    (iblk m c 9 t : Vec Ideal S256x256 .bf16) (ix2 j d) = m ((c : Thread nD τ).loc main_arg9) (ix2 d j) := by
  obtain ⟨-, -, -, -, -, -, -, -, -, -, -, -, e0, e1, -⟩ := idx_fixed t
  unfold iblk
  rw [View.read_apply]
  show V m c main_v7 _ = _
  rw [V_at]
  have e : ((cfg0.win 9).blk t).view.emb (ix2 j d) = ix2 j d := by
    funext a; apply Fin.ext
    match a with
    | ⟨0, _⟩ => show win0_9.index t (0 : Fin 2) * 256 + 1 * j.val = j.val; rw [e0]; omega
    | ⟨1, _⟩ => show win0_9.index t (1 : Fin 2) * 256 + 1 * d.val = d.val; rw [e1]; omega
  rw [e]
  exact transpose_ix2_apply _ transposes_S256x256_S256x256_1_0 j d

/-- Entry `(0, d)` of the input row's block is `BT (d, 0)`. -/
theorem bt_block (c : Dev nD) (t : Fin cfg0.N) (d : Fin 256) :
    (iblk m c 10 t : Vec Ideal S1x256 .f32) (ix2 (0 : Fin 1) d) = m ((c : Thread nD τ).loc main_arg10) (ix2 d (0 : Fin 1)) := by
  obtain ⟨-, -, -, -, -, -, -, -, -, -, -, -, -, -, e0, e1⟩ := idx_fixed t
  unfold iblk
  rw [View.read_apply]
  show V m c main_v8 _ = _
  rw [V_bt]
  have e : ((cfg0.win 10).blk t).view.emb (ix2 (0 : Fin 1) d) = ix2 (0 : Fin 1) d := by
    funext a; apply Fin.ext
    match a with
    | ⟨0, _⟩ => show win0_10.index t (0 : Fin 2) * 1 + 1 * 0 = 0; rw [e0]
    | ⟨1, _⟩ => show win0_10.index t (1 : Fin 2) * 256 + 1 * d.val = d.val; rw [e1]; omega
  rw [e]
  exact Cert.Proof.Columns.shapeCast_a1_1a_apply _ shapeCasts_S256x1_S1x256 (0 : Fin 1) d

/-! ## Where the result blocks land -/

/-- Entry `(p, n)` of the hidden state's block at point `t` is array entry `(2048·t + p, n)`. -/
theorem hidden_emb (t : Fin cfg0.N) (p : Fin 2048) (n : Fin 512) :
    ((cfg0.win 11).blk t).view.emb (ix2 p n) = ix2 ⟨t.val * 2048 + p.val, row_lt t p⟩ n := by
  obtain ⟨-, -, -, -, -, -, e0, e1, -⟩ := idx_moving t
  funext a; apply Fin.ext
  match a with
  | ⟨0, _⟩ => show win0_11.index t (0 : Fin 2) * 2048 + 1 * p.val = t.val * 2048 + p.val; rw [e0]; omega
  | ⟨1, _⟩ => show win0_11.index t (1 : Fin 2) * 512 + 1 * n.val = n.val; rw [e1]; omega

/-- Entry `(p, q)` of the memory's block at point `t` is array entry `(2048·t + p, q)`. -/
theorem memory_emb (t : Fin cfg0.N) (p : Fin 2048) (q : Fin 256) :
    ((cfg0.win 12).blk t).view.emb (ix2 p q) = ix2 ⟨t.val * 2048 + p.val, row_lt t p⟩ q := by
  obtain ⟨-, -, -, -, -, -, -, -, e0, e1⟩ := idx_moving t
  funext a; apply Fin.ext
  match a with
  | ⟨0, _⟩ => show win0_12.index t (0 : Fin 2) * 2048 + 1 * p.val = t.val * 2048 + p.val; rw [e0]; omega
  | ⟨1, _⟩ => show win0_12.index t (1 : Fin 2) * 256 + 1 * q.val = q.val; rw [e1]; omega

end Cert.KernelIdeal.Blocks

end
-- ==== Proof.Whole.lean ====
/-
  The two result arrays after the kernel's run, as whole-array functions of the arguments.

  At each of the eight grid points the body's two stores, written back, are the block of rows
  `2048·t … 2048·t + 2047` of the specification's new hidden state and new memory of the arguments: a block entry
  depends only on its own batch row, and that row of the block is the batch row `2048·t + p`. The eight blocks are
  disjoint and cover all 16384 rows (row `r` lies in the block of point `r / 2048`), so after the run each result
  array is the specification's function everywhere.
-/
import proofs.«145382_j37795712205130_2_alg».proof.Proof.Gen.KernelIdeal.Value
import proofs.«145382_j37795712205130_2_alg».proof.Proof.Spec
import proofs.«145382_j37795712205130_2_alg».proof.Proof.Body
import proofs.«145382_j37795712205130_2_alg».proof.Proof.Blocks

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Lmu Cert.KernelIdeal.Body Cert.KernelIdeal.Blocks

variable (m : (ℓ : Loc nD τ sig) → Buf (Elt Ideal) ℓ) (ρ : Dev nD → PrngReg)

/-- The new hidden state of the arguments as the kernel was launched with them. -/
abbrev hiddenOf (c : Dev nD) : Buf (Elt Ideal) ((c : Thread nD τ).loc main_v9_0) :=
  newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The new memory of the arguments as the kernel was launched with them. -/
abbrev memoryOf (c : Dev nD) : Buf (Elt Ideal) ((c : Thread nD τ).loc main_v9_1) :=
  newMemory (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10))

theorem zero_offsets : (![0, 0] : Fin 2 → Nat) = fun _ => 0 := funext fun a => by fin_cases a <;> rfl

/-! ## What a point writes back -/

/-- Point `t` writes back block `t` of the new memory. -/
theorem memory_flushed (c : Dev nD) (t : Fin cfg0.N) :
    (dats m 0 c).flushed 12 t = ((cfg0.win 12).blk t).view.read (Elt Ideal) (memoryOf m c) := by
  show (cfg0.win 12).cut (grid0.coords t) ((dats m 0 c).after 12 t) = _
  rw [after0_12]
  unfold out0_12
  rw [View.canon_unit_zero zero_offsets]
  simp only [View.ld_unit_zero (S := S2048x128) zero_offsets,
    View.ld_unit_zero (S := S2048x512) zero_offsets,
    View.ld_unit_zero (S := S2048x256) zero_offsets,
    View.ld_unit_zero (S := S1x128) zero_offsets,
    View.ld_unit_zero (S := S1x512) zero_offsets,
    View.ld_unit_zero (S := S1x256) zero_offsets,
    View.ld_unit_zero (S := S256x256) zero_offsets,
    View.ld_unit_zero (S := S128x512) zero_offsets,
    View.ld_unit_zero (S := S512x512) zero_offsets,
    View.ld_unit_zero (S := S256x512) zero_offsets]
  funext j
  obtain ⟨p, q, rfl⟩ : ∃ (p : Fin 2048) (q : Fin 256), j = ix2 p q := ⟨j 0, j 1, eq_ix2 j⟩
  show k0_pay2 (F := Ideal) (iblk m c 0 t) (iblk m c 1 t) (iblk m c 2 t) (iblk m c 6 t) (iblk m c 7 t) (iblk m c 8 t) (iblk m c 9 t) (iblk m c 10 t) (ix2 p q)
    = memoryOf m c (((cfg0.win 12).blk t).view.emb (ix2 p q))
  rw [memory_emb t p q]
  exact memory_block_of_reads (iblk m c 0 t) (iblk m c 1 t) (iblk m c 2 t) (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10))
    ⟨t.val * 2048 + p.val, row_lt t p⟩ p
    (fun k => x_block m c t p k) (fun k => h_block m c t p k) (fun k => m_block m c t p k)
    (fun k => ex_block m c t k) (fun k => eh_block m c t k) (fun k => em_block m c t k)
    (fun j d => at_block m c t j d) (fun d => bt_block m c t d) q

/-- Point `t` writes back block `t` of the new hidden state. -/
theorem hidden_flushed (c : Dev nD) (t : Fin cfg0.N) :
    (dats m 0 c).flushed 11 t = ((cfg0.win 11).blk t).view.read (Elt Ideal) (hiddenOf m c) := by
  show (cfg0.win 11).cut (grid0.coords t) ((dats m 0 c).after 11 t) = _
  rw [after0_11]
  unfold out0_11
  rw [View.canon_unit_zero zero_offsets]
  simp only [View.ld_unit_zero (S := S2048x128) zero_offsets,
    View.ld_unit_zero (S := S2048x512) zero_offsets,
    View.ld_unit_zero (S := S2048x256) zero_offsets,
    View.ld_unit_zero (S := S1x128) zero_offsets,
    View.ld_unit_zero (S := S1x512) zero_offsets,
    View.ld_unit_zero (S := S1x256) zero_offsets,
    View.ld_unit_zero (S := S256x256) zero_offsets,
    View.ld_unit_zero (S := S128x512) zero_offsets,
    View.ld_unit_zero (S := S512x512) zero_offsets,
    View.ld_unit_zero (S := S256x512) zero_offsets]
  funext j
  obtain ⟨p, n, rfl⟩ : ∃ (p : Fin 2048) (n : Fin 512), j = ix2 p n := ⟨j 0, j 1, eq_ix2 j⟩
  show k0_pay1 (F := Ideal) (iblk m c 0 t) (iblk m c 1 t)
      (k0_pay2 (F := Ideal) (iblk m c 0 t) (iblk m c 1 t) (iblk m c 2 t) (iblk m c 6 t) (iblk m c 7 t) (iblk m c 8 t) (iblk m c 9 t) (iblk m c 10 t))
      (k0_pay3 (F := Ideal) (iblk m c 3 t)) (iblk m c 4 t) (iblk m c 5 t) (ix2 p n)
    = hiddenOf m c (((cfg0.win 11).blk t).view.emb (ix2 p n))
  rw [hidden_emb t p n]
  exact hidden_block_of_reads (iblk m c 0 t) (iblk m c 1 t) (iblk m c 2 t) (iblk m c 6 t) (iblk m c 7 t) (iblk m c 8 t) (iblk m c 9 t) (iblk m c 10 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    ⟨t.val * 2048 + p.val, row_lt t p⟩ p
    (fun k => x_block m c t p k) (fun k => h_block m c t p k) (fun k => m_block m c t p k)
    (fun k => ex_block m c t k) (fun k => eh_block m c t k) (fun k => em_block m c t k)
    (fun j d => at_block m c t j d) (fun d => bt_block m c t d)
    (fun k n => wx_block m c t k n) (fun k n => wh_block m c t k n) (fun d n => wm_block m c t d n) n

/-! ## The blocks cover the arrays -/

/-- An index is in point `t`'s block of the memory array iff each coordinate is in the block's range. -/
theorem mem_memory_block (t : Fin cfg0.N) (i : S16384x256.Idx) :
    i ∈ ((cfg0.win 12).blk t).view.set ↔ ∀ a : Fin 2, win0_12.index t a * S2048x256.size a ≤ (i a).val
      ∧ (i a).val < win0_12.index t a * S2048x256.size a + S2048x256.size a := by
  show i ∈ ((View.whole main_v9_1).slice (win0_12.rect t)).set ↔ _
  rw [View.set_slice_whole, Rect.mem_set_unit]
  exact Iff.rfl

/-- An index is in point `t`'s block of the hidden-state array iff each coordinate is in the block's range. -/
theorem mem_hidden_block (t : Fin cfg0.N) (i : S16384x512.Idx) :
    i ∈ ((cfg0.win 11).blk t).view.set ↔ ∀ a : Fin 2, win0_11.index t a * S2048x512.size a ≤ (i a).val
      ∧ (i a).val < win0_11.index t a * S2048x512.size a + S2048x512.size a := by
  show i ∈ ((View.whole main_v9_0).slice (win0_11.rect t)).set ↔ _
  rw [View.set_slice_whole, Rect.mem_set_unit]
  exact Iff.rfl

/-- Batch row `r` is a row of the point `r / 2048`. -/
theorem point_of_row (r : ℕ) (hr : r < 16384) : ∃ t : Fin cfg0.N, t.val = r / 2048 :=
  ⟨⟨r / 2048, by have := points; omega⟩, rfl⟩

/-- Every index of the memory array is in some point's block. -/
theorem memory_cover (i : S16384x256.Idx) :
    ∃ t : Fin cfg0.N, (cfg0.win 12).flush t = true ∧ i ∈ ((cfg0.win 12).blk t).view.set := by
  have hi0 : (i 0).val < 16384 := (i 0).isLt
  have hi1 : (i 1).val < 256 := (i 1).isLt
  obtain ⟨t, ht⟩ := point_of_row (i 0).val hi0
  obtain ⟨-, -, -, -, -, -, -, -, e0, e1⟩ := idx_moving t
  refine ⟨t, flush0_12 t, ?_⟩
  rw [mem_memory_block]
  intro a
  match a with
  | ⟨0, _⟩ =>
    show win0_12.index t (0 : Fin 2) * 2048 ≤ (i 0).val ∧ (i 0).val < win0_12.index t (0 : Fin 2) * 2048 + 2048
    rw [e0, ht]; omega
  | ⟨1, _⟩ =>
    show win0_12.index t (1 : Fin 2) * 256 ≤ (i 1).val ∧ (i 1).val < win0_12.index t (1 : Fin 2) * 256 + 256
    rw [e1]; omega

/-- Every index of the hidden-state array is in some point's block. -/
theorem hidden_cover (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  obtain ⟨t, ht⟩ := point_of_row (i 0).val hi0
  obtain ⟨-, -, -, -, -, -, e0, e1, -⟩ := idx_moving t
  refine ⟨t, flush0_11 t, ?_⟩
  rw [mem_hidden_block]
  intro a
  match a with
  | ⟨0, _⟩ =>
    show win0_11.index t (0 : Fin 2) * 2048 ≤ (i 0).val ∧ (i 0).val < win0_11.index t (0 : Fin 2) * 2048 + 2048
    rw [e0, ht]; omega
  | ⟨1, _⟩ =>
    show win0_11.index t (1 : Fin 2) * 512 ≤ (i 1).val ∧ (i 1).val < win0_11.index t (1 : Fin 2) * 512 + 512
    rw [e1]; omega

/-! ## The arrays after the run -/

/-- After the run the memory array is the new memory of the arguments. -/
theorem memory_final (c : Dev nD) : (dats m 0 c).arrAt 12 cfg0.N = memoryOf m c :=
  (dats m 0 c).arrAt_eq_of_cover 12 (memoryOf m c) (fun t _ => memory_flushed m c t) memory_cover

/-- After the run the hidden-state array is the new hidden state of the arguments. -/
theorem hidden_final (c : Dev nD) : (dats m 0 c).arrAt 11 cfg0.N = hiddenOf m c :=
  (dats m 0 c).arrAt_eq_of_cover 11 (hiddenOf m c) (fun t _ => hidden_flushed m c t) hidden_cover

/-- The kernel's run: every weakly fair execution terminates with the two results at the specification's functions
    of the arguments, and the arguments unchanged. -/
theorem run : θ_run defs (onTc (τ := τ) (main (F := Ideal))) ⟨m, fun _ => 0, ρ⟩ fun r => ∀ c : Dev nD,
      r.2.mem ((c : Thread nD τ).loc main_v9_0) = hiddenOf m c
      ∧ r.2.mem ((c : Thread nD τ).loc main_v9_1) = memoryOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (hidden_final m c), (h c).2.1.trans (memory_final m c), (h c).2.2⟩)
    (Cert.KernelIdeal.Value.run_blocks m ρ)

end Cert.KernelIdeal.Whole

end
-- ==== Proof.Reference.lean ====
/-
  The reference program computes the cell step of `Spec.lean`.

  Its host operations, read one at a time at an index: a matrix product with a transposed weight is an inner product
  with that weight's own row (`(W^T)[k, n] = W[n, k]`); the product of the signal column `[16384, 1]` with the row
  `[1, 256]` is a contraction over an axis of extent one, so it is the single product `u[r] · BT[d, 0]`; and the
  logistic function is spelt `1 / (1 + exp (−s))` with the constant `1.0`, which is the extended reals' own
  definition of it once the constant's word is read as the real number one.
-/
import proofs.«145382_j37795712205130_2_alg».proof.Proof.Gen.ReferenceIdeal.Read
import proofs.«145382_j37795712205130_2_alg».proof.Proof.Spec
import proofs.«145382_j37795712205130_2_alg».proof.Proof.LibRowDot

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lmu Cert.Proof.RowDot

/-- Two index functions into a rank-2 shape agree when their two coordinates do. -/
local macro "coords" : tactic =>
  `(tactic| (funext a; apply Fin.ext; match a with | ⟨0, _⟩ => rfl | ⟨1, _⟩ => rfl))

/-- The f32 word `0x3F800000` denotes the real number one. -/
theorem ofBits_one : Ideal.ofBits .f32 0x3F800000#32 = (1 : EReal) := by
  simp [Ideal.ofBits, Ideal.ieee, -EReal.coe_mul]
  norm_num

variable (x0 : (⟨S16384x128, .f32⟩ : BufTy).Contents (Elt Ideal)) (x1 : (⟨S16384x512, .f32⟩ : BufTy).Contents (Elt Ideal))
  (x2 : (⟨S16384x256, .f32⟩ : BufTy).Contents (Elt Ideal)) (x3 : (⟨S512x128, .f32⟩ : BufTy).Contents (Elt Ideal))
  (x4 : (⟨S512x512, .f32⟩ : BufTy).Contents (Elt Ideal)) (x5 : (⟨S512x256, .f32⟩ : BufTy).Contents (Elt Ideal))
  (x6 : (⟨S1x128, .f32⟩ : BufTy).Contents (Elt Ideal)) (x7 : (⟨S1x512, .f32⟩ : BufTy).Contents (Elt Ideal))
  (x8 : (⟨S1x256, .f32⟩ : BufTy).Contents (Elt Ideal)) (x9 : (⟨S256x256, .f32⟩ : BufTy).Contents (Elt Ideal))
  (x10 : (⟨S256x1, .f32⟩ : BufTy).Contents (Elt Ideal))

/-! ## The three inner products of the signal -/

/-- `x @ ex^T` at row `r` is the inner product of row `r` of `x` with the encoder's one row. -/
theorem xe_apply (r : Fin 16384) :
    val_main_v1 (F := Ideal) x0 x6 (ix2 r (0 : Fin 1)) = ∑ k : Fin 128, x0 (ix2 r k) * x6 (ix2 (0 : Fin 1) k) := by
  rw [val_main_v1_apply]
  refine Finset.sum_congr rfl fun k _ => ?_
  rw [val_main_v0_apply]
  exact congrArg₂ (· * ·) (congrArg x0 (by coords)) (congrArg x6 (by coords))

/-- `h @ eh^T` at row `r`. -/
theorem he_apply (r : Fin 16384) :
    val_main_v3 (F := Ideal) x1 x7 (ix2 r (0 : Fin 1)) = ∑ k : Fin 512, x1 (ix2 r k) * x7 (ix2 (0 : Fin 1) k) := by
  rw [val_main_v3_apply]
  refine Finset.sum_congr rfl fun k _ => ?_
  rw [val_main_v2_apply]
  exact congrArg₂ (· * ·) (congrArg x1 (by coords)) (congrArg x7 (by coords))

/-- `m @ em^T` at row `r`. -/
theorem me_apply (r : Fin 16384) :
    val_main_v6 (F := Ideal) x2 x8 (ix2 r (0 : Fin 1)) = ∑ k : Fin 256, x2 (ix2 r k) * x8 (ix2 (0 : Fin 1) k) := by
  rw [val_main_v6_apply]
  refine Finset.sum_congr rfl fun k _ => ?_
  rw [val_main_v5_apply]
  exact congrArg₂ (· * ·) (congrArg x2 (by coords)) (congrArg x8 (by coords))

/-- The reference's signal column at row `r` is the specification's signal. -/
theorem signal_eq (r : Fin 16384) :
    val_main_v7 (F := Ideal) x0 x1 x2 x6 x7 x8 (ix2 r (0 : Fin 1)) = signalAt x0 x1 x2 x6 x7 x8 r := by
  rw [val_main_v7_apply, val_main_v4_apply, xe_apply, he_apply, me_apply]
  rfl

/-! ## The new memory -/

/-- `m @ AT^T` at `(r, d)` is the inner product of row `r` of `m` with row `d` of `AT`. -/
theorem mA_apply (r : Fin 16384) (d : Fin 256) :
    val_main_v9 (F := Ideal) x2 x9 (ix2 r d) = ∑ j : Fin 256, x2 (ix2 r j) * x9 (ix2 d j) := by
  rw [val_main_v9_apply]
  refine Finset.sum_congr rfl fun k _ => ?_
  rw [val_main_v8_apply]
  exact congrArg₂ (· * ·) (congrArg x2 (by coords)) (congrArg x9 (by coords))

/-- The reference's second result is the specification's new memory. -/
theorem memory_eq : val_main_v12 (F := Ideal) x0 x1 x2 x6 x7 x8 x9 x10 = newMemory x0 x1 x2 x6 x7 x8 x9 x10 := by
  funext i
  obtain ⟨r, d, rfl⟩ : ∃ (r : Fin 16384) (d : Fin 256), i = ix2 r d := ⟨i 0, i 1, eq_ix2 i⟩
  rw [val_main_v12_apply, mA_apply, val_main_v11_apply, sum_fin_one]
  have e1 : lidx_main_v11 (ix2 r d) (0 : Fin 1) = ix2 r (0 : Fin 1) := by coords
  have e2 : idx_main_v10 (ridx_main_v11 (ix2 r d) (0 : Fin 1)) = ix2 d (0 : Fin 1) := by coords
  rw [e1, signal_eq, val_main_v10_apply, e2]
  rfl

/-! ## The new hidden state -/

/-- `x @ Wx^T` at `(r, n)`. -/
theorem xW_apply (r : Fin 16384) (n : Fin 512) :
    val_main_v14 (F := Ideal) x0 x3 (ix2 r n) = ∑ k : Fin 128, x0 (ix2 r k) * x3 (ix2 n k) := by
  rw [val_main_v14_apply]
  refine Finset.sum_congr rfl fun k _ => ?_
  rw [val_main_v13_apply]
  exact congrArg₂ (· * ·) (congrArg x0 (by coords)) (congrArg x3 (by coords))

/-- `h @ Wh^T` at `(r, n)`. -/
theorem hW_apply (r : Fin 16384) (n : Fin 512) :
    val_main_v16 (F := Ideal) x1 x4 (ix2 r n) = ∑ k : Fin 512, x1 (ix2 r k) * x4 (ix2 n k) := by
  rw [val_main_v16_apply]
  refine Finset.sum_congr rfl fun k _ => ?_
  rw [val_main_v15_apply]
  exact congrArg₂ (· * ·) (congrArg x1 (by coords)) (congrArg x4 (by coords))

/-- `m' @ Wm^T` at `(r, n)`, over the specification's new memory. -/
theorem mW_apply (r : Fin 16384) (n : Fin 512) :
    val_main_v19 (F := Ideal) x0 x1 x2 x5 x6 x7 x8 x9 x10 (ix2 r n)
      = ∑ d : Fin 256, newMemoryAt x0 x1 x2 x6 x7 x8 x9 x10 r d * x5 (ix2 n d) := by
  rw [val_main_v19_apply, memory_eq]
  refine Finset.sum_congr rfl fun k _ => ?_
  rw [val_main_v18_apply]
  exact congrArg₂ (· * ·) (congrArg (newMemory x0 x1 x2 x6 x7 x8 x9 x10) (by coords : _ = ix2 r k)) (congrArg x5 (by coords))

/-- The reference's first result is the specification's new hidden state. -/
theorem hidden_eq :
    val_main_v26 (F := Ideal) x0 x1 x2 x3 x4 x5 x6 x7 x8 x9 x10 = newHidden x0 x1 x2 x3 x4 x5 x6 x7 x8 x9 x10 := by
  funext i
  obtain ⟨r, n, rfl⟩ : ∃ (r : Fin 16384) (n : Fin 512), i = ix2 r n := ⟨i 0, i 1, eq_ix2 i⟩
  rw [val_main_v26_apply, val_main_v25_apply, val_main_cst_0_apply, val_main_v24_apply, val_main_v23_apply,
    val_main_cst_apply, val_main_v22_apply, val_main_v21_apply, val_main_v20_apply, val_main_v17_apply,
    xW_apply, hW_apply, mW_apply, Ideal.ofBits_def, ofBits_one]
  rfl

end Cert.ReferenceIdeal.RefValue

end
-- ==== Proof.lean ====
/-
  One step of a Legendre-memory recurrent cell over a batch of 16384 rows: a fused kernel tiled over the batch
  against the plain matrix formulas.

  For each batch row, with `u = x·ex + h·eh + m·em` the scalar signal,
    `m' = m · AT^T + u · BT^T`   and   `h' = logistic (x · Wx^T + h · Wh^T + m' · Wm^T)`.
  The kernel receives the four weight matrices already transposed (and narrowed to a shorter float format, which
  changes nothing on the extended reals) and the column `BT` as a row; it forms `u` by three lane sums of products,
  `m'` by one matrix product plus `u` spread over the lanes times the row `BT^T`, and `h'` by three matrix products and
  the logistic function. The reference forms every term as a matrix product with a transposed operand — `u · BT^T`
  as a contraction over an axis of extent one — and spells the logistic function `1 / (1 + exp (−s))`.

  On the extended reals each side's results are, index by index, the row functions of `Proof/Spec.lean`: a matrix
  product into a zero accumulator and a lane sum are plain finite sums of products, a transposed operand read at
  `(k, n)` is the operand at `(n, k)`, a one-term sum is its term, and `1 / (1 + exp (−s))` is the definition of the
  logistic function there. Both sides add their terms in the same grouping, so no law that needs finiteness is
  used and the precondition is never opened.

  The kernel's two result arrays after its run are assembled from the eight blocks the grid points write back
  (`Proof/Whole.lean`, over the blocks of `Proof/Blocks.lean` and the body's stores of `Proof/Body.lean`); the
  reference's results are read off its run one operation at a time (`Proof/Reference.lean`). The three frames are
  the programs' own runs with the results dropped, and the kernel is its own idealization: no rewrite was recorded.
-/
import proofs.«145382_j37795712205130_2_alg».proof.Defs
import proofs.«145382_j37795712205130_2_alg».proof.Proof.Gen.Kernel
import proofs.«145382_j37795712205130_2_alg».proof.Proof.Gen.Kernel.Skeleton
import proofs.«145382_j37795712205130_2_alg».proof.Proof.Gen.Kernel.Launch
import proofs.«145382_j37795712205130_2_alg».proof.Proof.Gen.Kernel.Points
import proofs.«145382_j37795712205130_2_alg».proof.Proof.Gen.Kernel.Frame
import proofs.«145382_j37795712205130_2_alg».proof.Proof.Gen.KernelIdeal
import proofs.«145382_j37795712205130_2_alg».proof.Proof.Gen.KernelIdeal.Skeleton
import proofs.«145382_j37795712205130_2_alg».proof.Proof.Gen.KernelIdeal.Launch
import proofs.«145382_j37795712205130_2_alg».proof.Proof.Gen.KernelIdeal.Points
import proofs.«145382_j37795712205130_2_alg».proof.Proof.Gen.KernelIdeal.Frame
import proofs.«145382_j37795712205130_2_alg».proof.Proof.Gen.ReferenceIdeal
import proofs.«145382_j37795712205130_2_alg».proof.Proof.Gen.Pre_finite_inputs
import proofs.«145382_j37795712205130_2_alg».proof.Proof.Gen.KernelIdeal.Value
import proofs.«145382_j37795712205130_2_alg».proof.Proof.Gen.ReferenceIdeal.Run
import proofs.«145382_j37795712205130_2_alg».proof.Proof.Gen.ReferenceIdeal.Read
import proofs.«145382_j37795712205130_2_alg».proof.Proof.Whole
import proofs.«145382_j37795712205130_2_alg».proof.Proof.Reference
import Idealize.ShloMosaic.Adequacy
import Idealize.ShloMosaic.Init

noncomputable section

namespace Cert.Proof

open Idealize.ShloMosaic Idealize.SL.Sem

/-- Every weakly fair execution of the kernel terminates without a fault and leaves the arguments as they were. -/
theorem frame_kernel : Cert.frame_Kernel := fun m ρ _ => Cert.Kernel.Gen.frame m ρ

/-- The same for the kernel read on the extended reals. -/
theorem frame_kernel_ideal : Cert.frame_KernelIdeal := fun m ρ _ => Cert.KernelIdeal.Gen.frame m ρ

/-- The reference's run, with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten for the extended reals: there is nothing to preserve. -/
theorem preserves : Cert.preserves_Kernel_KernelIdeal := trivial

/-- From memories that agree on the eleven arguments, the kernel ends with its two result arrays at the
    specification's new hidden state and new memory of its arguments, and the reference ends with its two results at
    the same functions of its own arguments, which are the kernel's. -/
theorem algebraic : Cert.algebraic_KernelIdeal_ReferenceIdeal := by
  intro m ρ m' ρ' _ hagree
  refine ⟨fun c => Cert.KernelIdeal.Whole.hiddenOf m c, fun c => Cert.KernelIdeal.Whole.memoryOf m c,
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v26_eq, Cert.ReferenceIdeal.RefValue.hidden_eq,
      a0, a1, a2, a3, a4, a5, a6, a7, a8, a9, a10]
  · obtain ⟨a0, a1, a2, a3, a4, a5, a6, a7, a8, a9, a10⟩ := hagree c
    rw [(h c).2.1, Cert.ReferenceIdeal.Read.val_main_v12_eq, Cert.ReferenceIdeal.RefValue.memory_eq,
      a0, a1, a2, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
